-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2 : Shape := ⟨3, ![4, 2048, 2]⟩
abbrev S8x1024x3072 : Shape := ⟨3, ![8, 1024, 3072]⟩
abbrev S8x3072x1024 : Shape := ⟨3, ![8, 3072, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x2 : S_.BroadcastsInDim S4x2048x2 (![] : Fin 0 → Fin S4x2048x2.rank)
  reducesTo_S4x2048x2_S_d0_1_2 : S4x2048x2.ReducesTo [0, 1, 2] S_
  bcast_S_S8x1024x3072 : S_.BroadcastsInDim S8x1024x3072 (![] : Fin 0 → Fin S8x1024x3072.rank)
  reducesTo_S8x1024x3072_S_d0_1_2 : S8x1024x3072.ReducesTo [0, 1, 2] S_
  bcast_S_S8x3072x1024 : S_.BroadcastsInDim S8x3072x1024 (![] : Fin 0 → Fin S8x3072x1024.rank)
  reducesTo_S8x3072x1024_S_d0_1_2 : S8x3072x1024.ReducesTo [0, 1, 2] S_

variable [Facts]

def fn_part1 {F : FTy → Type} [FloatOps F] (main_v13 : IVec S_ 1) (main_v16 : IVec S8x3072x1024 1) : IVec S_ 1 :=
  let main_c_5 : IVec S_ 1 := constantI S_ 1 1#1
  let main_v17 : IVec S_ 1 := (fun x v => Host.reduce IntOp.andi x v reducesTo_S8x3072x1024_S_d0_1_2 h_S_) main_v16 main_c_5
  let main_v18 : IVec S_ 1 := andi main_v13 main_v17
  main_v18

def fn {F : FTy → Type} [FloatOps F] (main_arg0 : FVec F S4x2048x1024 .f32) (main_arg1 : IVec S4x2048x2 32) (main_arg2 : FVec F S4x2048x2 .f32) (main_arg3 : FVec F S8x1024x3072 .f32) (main_arg4 : FVec F S8x3072x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x2 .f32 := Host.absf main_arg2
  let main_cst_0 : FVec F S_ .f32 := constant S_ .f32 0x7F800000#32
  let main_v5 : FVec F S4x2048x2 .f32 := broadcastInDim S4x2048x2 ![] bcast_S_S4x2048x2 main_cst_0
  let main_v6 : IVec S4x2048x2 1 := cmpf .olt main_v4 main_v5
  let main_c_1 : IVec S_ 1 := constantI S_ 1 1#1
  let main_v7 : IVec S_ 1 := (fun x v => Host.reduce IntOp.andi x v reducesTo_S4x2048x2_S_d0_1_2 h_S_) main_v6 main_c_1
  let main_v8 : IVec S_ 1 := andi main_v3 main_v7
  let main_v9 : FVec F S8x1024x3072 .f32 := Host.absf main_arg3
  let main_cst_2 : FVec F S_ .f32 := constant S_ .f32 0x7F800000#32
  let main_v10 : FVec F S8x1024x3072 .f32 := broadcastInDim S8x1024x3072 ![] bcast_S_S8x1024x3072 main_cst_2
  let main_v11 : IVec S8x1024x3072 1 := cmpf .olt main_v9 main_v10
  let main_c_3 : IVec S_ 1 := constantI S_ 1 1#1
  let main_v12 : IVec S_ 1 := (fun x v => Host.reduce IntOp.andi x v reducesTo_S8x1024x3072_S_d0_1_2 h_S_) main_v11 main_c_3
  let main_v13 : IVec S_ 1 := andi main_v8 main_v12
  let main_v14 : FVec F S8x3072x1024 .f32 := Host.absf main_arg4
  let main_cst_4 : FVec F S_ .f32 := constant S_ .f32 0x7F800000#32
  let main_v15 : FVec F S8x3072x1024 .f32 := broadcastInDim S8x3072x1024 ![] bcast_S_S8x3072x1024 main_cst_4
  let main_v16 : IVec S8x3072x1024 1 := cmpf .olt main_v14 main_v15
  fn_part1 (F := F) main_v13 main_v16
-- ==== Kernel.lean ====
abbrev S4x2048x1024 : Shape := ⟨3, ![4, 2048, 1024]⟩
abbrev S4x2048x2 : Shape := ⟨3, ![4, 2048, 2]⟩
abbrev S8x1024x3072 : Shape := ⟨3, ![8, 1024, 3072]⟩
abbrev S8x3072x1024 : Shape := ⟨3, ![8, 3072, 1024]⟩
abbrev S8192x1024 : Shape := ⟨2, ![8192, 1024]⟩
abbrev S8192x2 : Shape := ⟨2, ![8192, 2]⟩
abbrev S512x1024 : Shape := ⟨2, ![512, 1024]⟩
abbrev S512x2 : Shape := ⟨2, ![512, 2]⟩
abbrev S1x1024x3072 : Shape := ⟨3, ![1, 1024, 3072]⟩
abbrev S1x3072x1024 : Shape := ⟨3, ![1, 3072, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 13
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2, .i32⟩
  | .hbm, ⟨2, _⟩ => ⟨S4x2048x2, .f32⟩
  | .hbm, ⟨3, _⟩ => ⟨S8x1024x3072, .f32⟩
  | .hbm, ⟨4, _⟩ => ⟨S8x3072x1024, .f32⟩
  | .hbm, ⟨5, _⟩ => ⟨S8192x1024, .f32⟩
  | .hbm, ⟨6, _⟩ => ⟨S8192x1024, .bf16⟩
  | .hbm, ⟨7, _⟩ => ⟨S8192x2, .i32⟩
  | .hbm, ⟨8, _⟩ => ⟨S8192x2, .f32⟩
  | .hbm, ⟨9, _⟩ => ⟨S8x1024x3072, .bf16⟩
  | .hbm, ⟨10, _⟩ => ⟨S8x3072x1024, .bf16⟩
  | .hbm, ⟨11, _⟩ => ⟨S8192x1024, .f32⟩
  | .hbm, ⟨12, _⟩ => ⟨S4x2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x2, .i32⟩
  | .local _ .vmem, ⟨3, _⟩ => ⟨S512x2, .i32⟩
  | .local _ .vmem, ⟨4, _⟩ => ⟨S512x2, .f32⟩
  | .local _ .vmem, ⟨5, _⟩ => ⟨S512x2, .f32⟩
  | .local _ .vmem, ⟨6, _⟩ => ⟨S1x1024x3072, .bf16⟩
  | .local _ .vmem, ⟨7, _⟩ => ⟨S1x1024x3072, .bf16⟩
  | .local _ .vmem, ⟨8, _⟩ => ⟨S1x3072x1024, .bf16⟩
  | .local _ .vmem, ⟨9, _⟩ => ⟨S1x3072x1024, .bf16⟩
  | .local _ .vmem, ⟨10, _⟩ => ⟨S512x1024, .f32⟩
  | .local _ .vmem, ⟨11, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3072x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x2048x1024_S8192x1024 : S4x2048x1024.ShapeCasts S8192x1024
  bitsLt_bf16_f32 : FTy.bits .bf16 < FTy.bits .f32
  shapeCasts_S4x2048x2_S8192x2 : S4x2048x2.ShapeCasts S8192x2
  inb_S512x1024_S512x1024_0_0 : ∀ a, (![0, 0] : Fin 2 → Nat) a + S512x1024.size a ≤ S512x1024.size a
  h_S512x1024 : 0 < S512x1024.numel
  inb_S512x2_S512x2_0_0 : ∀ a, (![0, 0] : Fin 2 → Nat) a + S512x2.size a ≤ S512x2.size a
  h_S512x2 : 0 < S512x2.numel
  shapeCasts_S512x2_S512x2 : S512x2.ShapeCasts S512x2
  reduces_S512x2_S512 : S512x2.Reduces [1] S512
  shapeCasts_S512_S512x1 : S512.ShapeCasts S512x1
  shapeCasts_S512x1024_S512x1024 : S512x1024.ShapeCasts S512x1024
  inb_S1x1024x3072_S1x1024x1024_0_0_0 : ∀ a, (![0, 0, 0] : Fin 3 → Nat) a + S1x1024x1024.size a ≤ S1x1024x3072.size a
  h_S1x1024x1024 : 0 < S1x1024x1024.numel
  shapeCasts_S1x1024x1024_S1024x1024 : S1x1024x1024.ShapeCasts S1024x1024
  inb_S1x3072x1024_S1x1024x1024_0_0_0 : ∀ a, (![0, 0, 0] : Fin 3 → Nat) a + S1x1024x1024.size a ≤ S1x3072x1024.size a
  inb_S1x1024x3072_S1x1024x1024_0_0_1024 : ∀ a, (![0, 0, 1024] : Fin 3 → Nat) a + S1x1024x1024.size a ≤ S1x1024x3072.size a
  inb_S1x3072x1024_S1x1024x1024_0_1024_0 : ∀ a, (![0, 1024, 0] : Fin 3 → Nat) a + S1x1024x1024.size a ≤ S1x3072x1024.size a
  inb_S1x1024x3072_S1x1024x1024_0_0_2048 : ∀ a, (![0, 0, 2048] : Fin 3 → Nat) a + S1x1024x1024.size a ≤ S1x1024x3072.size a
  inb_S1x3072x1024_S1x1024x1024_0_2048_0 : ∀ a, (![0, 2048, 0] : Fin 3 → Nat) a + S1x1024x1024.size a ≤ S1x3072x1024.size a
  broadcasts_S512x1_S512x1024 : S512x1.Broadcasts S512x1024
  shapeCasts_S8192x1024_S4x2048x1024 : S8192x1024.ShapeCasts S4x2048x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S8192x2.size a
  hwx0_1 : ∀ i : grid0.Coords, EltTy.bits .i32 = 32 ∨ (Rect.block (s := S8192x2) S512x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2.size a ≤ S8192x2.size a
  hwx0_2 : ∀ i : grid0.Coords, EltTy.bits .f32 = 32 ∨ (Rect.block (s := S8192x2) S512x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x3072.size a ≤ S8x1024x3072.size a
  hwx0_3 : ∀ i : grid0.Coords, EltTy.bits .bf16 = 32 ∨ (Rect.block (s := S8x1024x3072) S1x1024x3072.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3072x1024.size a ≤ S8x3072x1024.size a
  hwx0_4 : ∀ i : grid0.Coords, EltTy.bits .bf16 = 32 ∨ (Rect.block (s := S8x3072x1024) S1x3072x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x3072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x3072x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4x2048x2 : Shape := ⟨3, ![4, 2048, 2]⟩
abbrev S8x1024x3072 : Shape := ⟨3, ![8, 1024, 3072]⟩
abbrev S8x3072x1024 : Shape := ⟨3, ![8, 3072, 1024]⟩
abbrev S8192x1024 : Shape := ⟨2, ![8192, 1024]⟩
abbrev S8192x2 : Shape := ⟨2, ![8192, 2]⟩
abbrev S_ : Shape := ⟨0, ![]⟩
abbrev S8192 : Shape := ⟨1, ![8192]⟩
abbrev S1x1024x3072 : Shape := ⟨3, ![1, 1024, 3072]⟩
abbrev S1024x3072 : Shape := ⟨2, ![1024, 3072]⟩
abbrev S8192x3072 : Shape := ⟨2, ![8192, 3072]⟩
abbrev S1x3072x1024 : Shape := ⟨3, ![1, 3072, 1024]⟩
abbrev S3072x1024 : Shape := ⟨2, ![3072, 1024]⟩
abbrev S8192x1 : Shape := ⟨2, ![8192, 1]⟩

abbrev nBuf : Space → Nat
  | .hbm => 155
  | .vmem => 0
  | .smem => 0
  | _ => 0

abbrev hbmTy0_0 (i : Nat) : BufTy := match i % 128 with
  | 0 => ⟨S4x2048x1024, .f32⟩
  | 1 => ⟨S4x2048x2, .i32⟩
  | 2 => ⟨S4x2048x2, .f32⟩
  | 3 => ⟨S8x1024x3072, .f32⟩
  | 4 => ⟨S8x3072x1024, .f32⟩
  | 5 => ⟨S8192x1024, .f32⟩
  | 6 => ⟨S8192x2, .i32⟩
  | 7 => ⟨S8192x2, .f32⟩
  | 8 => ⟨S_, .f32⟩
  | 9 => ⟨S8192x1024, .f32⟩
  | 10 => ⟨S_, .i32⟩
  | 11 => ⟨S8192x2, .i32⟩
  | 12 => ⟨S8192x2, .i1⟩
  | 13 => ⟨S_, .f32⟩
  | 14 => ⟨S8192x2, .f32⟩
  | 15 => ⟨S8192x2, .f32⟩
  | 16 => ⟨S_, .f32⟩
  | 17 => ⟨S8192, .f32⟩
  | 18 => ⟨S1x1024x3072, .f32⟩
  | 19 => ⟨S1024x3072, .f32⟩
  | 20 => ⟨S8192x3072, .f32⟩
  | 21 => ⟨S1x3072x1024, .f32⟩
  | 22 => ⟨S3072x1024, .f32⟩
  | 23 => ⟨S8192x1024, .f32⟩
  | 24 => ⟨S8192x1, .f32⟩
  | 25 => ⟨S8192x1024, .f32⟩
  | 26 => ⟨S8192x1024, .f32⟩
  | 27 => ⟨S8192x1024, .f32⟩
  | 28 => ⟨S_, .i32⟩
  | 29 => ⟨S8192x2, .i32⟩
  | 30 => ⟨S8192x2, .i1⟩
  | 31 => ⟨S_, .f32⟩
  | 32 => ⟨S8192x2, .f32⟩
  | 33 => ⟨S8192x2, .f32⟩
  | 34 => ⟨S_, .f32⟩
  | 35 => ⟨S8192, .f32⟩
  | 36 => ⟨S1x1024x3072, .f32⟩
  | 37 => ⟨S1024x3072, .f32⟩
  | 38 => ⟨S8192x3072, .f32⟩
  | 39 => ⟨S1x3072x1024, .f32⟩
  | 40 => ⟨S3072x1024, .f32⟩
  | 41 => ⟨S8192x1024, .f32⟩
  | 42 => ⟨S8192x1, .f32⟩
  | 43 => ⟨S8192x1024, .f32⟩
  | 44 => ⟨S8192x1024, .f32⟩
  | 45 => ⟨S8192x1024, .f32⟩
  | 46 => ⟨S_, .i32⟩
  | 47 => ⟨S8192x2, .i32⟩
  | 48 => ⟨S8192x2, .i1⟩
  | 49 => ⟨S_, .f32⟩
  | 50 => ⟨S8192x2, .f32⟩
  | 51 => ⟨S8192x2, .f32⟩
  | 52 => ⟨S_, .f32⟩
  | 53 => ⟨S8192, .f32⟩
  | 54 => ⟨S1x1024x3072, .f32⟩
  | 55 => ⟨S1024x3072, .f32⟩
  | 56 => ⟨S8192x3072, .f32⟩
  | 57 => ⟨S1x3072x1024, .f32⟩
  | 58 => ⟨S3072x1024, .f32⟩
  | 59 => ⟨S8192x1024, .f32⟩
  | 60 => ⟨S8192x1, .f32⟩
  | 61 => ⟨S8192x1024, .f32⟩
  | 62 => ⟨S8192x1024, .f32⟩
  | 63 => ⟨S8192x1024, .f32⟩
  | 64 => ⟨S_, .i32⟩
  | 65 => ⟨S8192x2, .i32⟩
  | 66 => ⟨S8192x2, .i1⟩
  | 67 => ⟨S_, .f32⟩
  | 68 => ⟨S8192x2, .f32⟩
  | 69 => ⟨S8192x2, .f32⟩
  | 70 => ⟨S_, .f32⟩
  | 71 => ⟨S8192, .f32⟩
  | 72 => ⟨S1x1024x3072, .f32⟩
  | 73 => ⟨S1024x3072, .f32⟩
  | 74 => ⟨S8192x3072, .f32⟩
  | 75 => ⟨S1x3072x1024, .f32⟩
  | 76 => ⟨S3072x1024, .f32⟩
  | 77 => ⟨S8192x1024, .f32⟩
  | 78 => ⟨S8192x1, .f32⟩
  | 79 => ⟨S8192x1024, .f32⟩
  | 80 => ⟨S8192x1024, .f32⟩
  | 81 => ⟨S8192x1024, .f32⟩
  | 82 => ⟨S_, .i32⟩
  | 83 => ⟨S8192x2, .i32⟩
  | 84 => ⟨S8192x2, .i1⟩
  | 85 => ⟨S_, .f32⟩
  | 86 => ⟨S8192x2, .f32⟩
  | 87 => ⟨S8192x2, .f32⟩
  | 88 => ⟨S_, .f32⟩
  | 89 => ⟨S8192, .f32⟩
  | 90 => ⟨S1x1024x3072, .f32⟩
  | 91 => ⟨S1024x3072, .f32⟩
  | 92 => ⟨S8192x3072, .f32⟩
  | 93 => ⟨S1x3072x1024, .f32⟩
  | 94 => ⟨S3072x1024, .f32⟩
  | 95 => ⟨S8192x1024, .f32⟩
  | 96 => ⟨S8192x1, .f32⟩
  | 97 => ⟨S8192x1024, .f32⟩
  | 98 => ⟨S8192x1024, .f32⟩
  | 99 => ⟨S8192x1024, .f32⟩
  | 100 => ⟨S_, .i32⟩
  | 101 => ⟨S8192x2, .i32⟩
  | 102 => ⟨S8192x2, .i1⟩
  | 103 => ⟨S_, .f32⟩
  | 104 => ⟨S8192x2, .f32⟩
  | 105 => ⟨S8192x2, .f32⟩
  | 106 => ⟨S_, .f32⟩
  | 107 => ⟨S8192, .f32⟩
  | 108 => ⟨S1x1024x3072, .f32⟩
  | 109 => ⟨S1024x3072, .f32⟩
  | 110 => ⟨S8192x3072, .f32⟩
  | 111 => ⟨S1x3072x1024, .f32⟩
  | 112 => ⟨S3072x1024, .f32⟩
  | 113 => ⟨S8192x1024, .f32⟩
  | 114 => ⟨S8192x1, .f32⟩
  | 115 => ⟨S8192x1024, .f32⟩
  | 116 => ⟨S8192x1024, .f32⟩
  | 117 => ⟨S8192x1024, .f32⟩
  | 118 => ⟨S_, .i32⟩
  | 119 => ⟨S8192x2, .i32⟩
  | 120 => ⟨S8192x2, .i1⟩
  | 121 => ⟨S_, .f32⟩
  | 122 => ⟨S8192x2, .f32⟩
  | 123 => ⟨S8192x2, .f32⟩
  | 124 => ⟨S_, .f32⟩
  | 125 => ⟨S8192, .f32⟩
  | 126 => ⟨S1x1024x3072, .f32⟩
  | 127 => ⟨S1024x3072, .f32⟩
  | _ => ⟨S4x2048x1024, .f32⟩

abbrev hbmTy0_1 (i : Nat) : BufTy := match i % 128 with
  | 0 => ⟨S8192x3072, .f32⟩
  | 1 => ⟨S1x3072x1024, .f32⟩
  | 2 => ⟨S3072x1024, .f32⟩
  | 3 => ⟨S8192x1024, .f32⟩
  | 4 => ⟨S8192x1, .f32⟩
  | 5 => ⟨S8192x1024, .f32⟩
  | 6 => ⟨S8192x1024, .f32⟩
  | 7 => ⟨S8192x1024, .f32⟩
  | 8 => ⟨S_, .i32⟩
  | 9 => ⟨S8192x2, .i32⟩
  | 10 => ⟨S8192x2, .i1⟩
  | 11 => ⟨S_, .f32⟩
  | 12 => ⟨S8192x2, .f32⟩
  | 13 => ⟨S8192x2, .f32⟩
  | 14 => ⟨S_, .f32⟩
  | 15 => ⟨S8192, .f32⟩
  | 16 => ⟨S1x1024x3072, .f32⟩
  | 17 => ⟨S1024x3072, .f32⟩
  | 18 => ⟨S8192x3072, .f32⟩
  | 19 => ⟨S1x3072x1024, .f32⟩
  | 20 => ⟨S3072x1024, .f32⟩
  | 21 => ⟨S8192x1024, .f32⟩
  | 22 => ⟨S8192x1, .f32⟩
  | 23 => ⟨S8192x1024, .f32⟩
  | 24 => ⟨S8192x1024, .f32⟩
  | 25 => ⟨S8192x1024, .f32⟩
  | 26 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_8 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_11 : Ref sig .tc := ⟨.hbm, 82, rfl⟩
abbrev main_v64 : Ref sig .tc := ⟨.hbm, 83, rfl⟩
abbrev main_v65 : Ref sig .tc := ⟨.hbm, 84, rfl⟩
abbrev main_cst_12 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_14 : Ref sig .tc := ⟨.hbm, 100, rfl⟩
abbrev main_v79 : Ref sig .tc := ⟨.hbm, 101, rfl⟩
abbrev main_v80 : Ref sig .tc := ⟨.hbm, 102, rfl⟩
abbrev main_cst_15 : Ref sig .tc := ⟨.hbm, 103, rfl⟩
abbrev main_v81 : Ref sig .tc := ⟨.hbm, 104, rfl⟩
abbrev main_v82 : Ref sig .tc := ⟨.hbm, 105, rfl⟩
abbrev main_cst_16 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_c_17 : Ref sig .tc := ⟨.hbm, 118, rfl⟩
abbrev main_v94 : Ref sig .tc := ⟨.hbm, 119, rfl⟩
abbrev main_v95 : Ref sig .tc := ⟨.hbm, 120, rfl⟩
abbrev main_cst_18 : Ref sig .tc := ⟨.hbm, 121, rfl⟩
abbrev main_v96 : Ref sig .tc := ⟨.hbm, 122, rfl⟩
abbrev main_v97 : Ref sig .tc := ⟨.hbm, 123, rfl⟩
abbrev main_cst_19 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_c_20 : Ref sig .tc := ⟨.hbm, 136, rfl⟩
abbrev main_v109 : Ref sig .tc := ⟨.hbm, 137, rfl⟩
abbrev main_v110 : Ref sig .tc := ⟨.hbm, 138, rfl⟩
abbrev main_cst_21 : Ref sig .tc := ⟨.hbm, 139, rfl⟩
abbrev main_v111 : Ref sig .tc := ⟨.hbm, 140, rfl⟩
abbrev main_v112 : Ref sig .tc := ⟨.hbm, 141, rfl⟩
abbrev main_cst_22 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩

abbrev nD : Nat := 1
abbrev τ : Topo := Topo.v7x

variable {F : FTy → Type} [FloatOps F]

class Facts₀ : Prop where
  shapeCasts_S4x2048x1024_S8192x1024 : S4x2048x1024.ShapeCasts S8192x1024
  shapeCasts_S4x2048x2_S8192x2 : S4x2048x2.ShapeCasts S8192x2
  bcast_S_S8192x1024 : S_.BroadcastsInDim S8192x1024 (![] : Fin 0 → Fin S8192x1024.rank)
  bcast_S_S8192x2 : S_.BroadcastsInDim S8192x2 (![] : Fin 0 → Fin S8192x2.rank)
  reducesTo_S8192x2_S8192_d1 : S8192x2.ReducesTo [1] S8192
  h_S_ : 0 < S_.numel
  slices_S8x1024x3072_S1x1024x3072_0_0_0 : S8x1024x3072.Slices ![0, 0, 0] S1x1024x3072
  shapeCasts_S1x1024x3072_S1024x3072 : S1x1024x3072.ShapeCasts S1024x3072
  slices_S8x3072x1024_S1x3072x1024_0_0_0 : S8x3072x1024.Slices ![0, 0, 0] S1x3072x1024
  shapeCasts_S1x3072x1024_S3072x1024 : S1x3072x1024.ShapeCasts S3072x1024
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  slices_S8x1024x3072_S1x1024x3072_1_0_0 : S8x1024x3072.Slices ![1, 0, 0] S1x1024x3072
  slices_S8x3072x1024_S1x3072x1024_1_0_0 : S8x3072x1024.Slices ![1, 0, 0] S1x3072x1024
  slices_S8x1024x3072_S1x1024x3072_2_0_0 : S8x1024x3072.Slices ![2, 0, 0] S1x1024x3072
  slices_S8x3072x1024_S1x3072x1024_2_0_0 : S8x3072x1024.Slices ![2, 0, 0] S1x3072x1024
  slices_S8x1024x3072_S1x1024x3072_3_0_0 : S8x1024x3072.Slices ![3, 0, 0] S1x1024x3072
  slices_S8x3072x1024_S1x3072x1024_3_0_0 : S8x3072x1024.Slices ![3, 0, 0] S1x3072x1024
  slices_S8x1024x3072_S1x1024x3072_4_0_0 : S8x1024x3072.Slices ![4, 0, 0] S1x1024x3072
  slices_S8x3072x1024_S1x3072x1024_4_0_0 : S8x3072x1024.Slices ![4, 0, 0] S1x3072x1024
  slices_S8x1024x3072_S1x1024x3072_5_0_0 : S8x1024x3072.Slices ![5, 0, 0] S1x1024x3072
  slices_S8x3072x1024_S1x3072x1024_5_0_0 : S8x3072x1024.Slices ![5, 0, 0] S1x3072x1024
  slices_S8x1024x3072_S1x1024x3072_6_0_0 : S8x1024x3072.Slices ![6, 0, 0] S1x1024x3072
  slices_S8x3072x1024_S1x3072x1024_6_0_0 : S8x3072x1024.Slices ![6, 0, 0] S1x3072x1024
  slices_S8x1024x3072_S1x1024x3072_7_0_0 : S8x1024x3072.Slices ![7, 0, 0] S1x1024x3072
  slices_S8x3072x1024_S1x3072x1024_7_0_0 : S8x3072x1024.Slices ![7, 0, 0] S1x3072x1024
  shapeCasts_S8192x1024_S4x2048x1024 : S8192x1024.ShapeCasts S4x2048x1024
  dot_S8192x1024_S1024x3072_S8192x3072_1_0_0_1_n_n_wf : DotDims.WF S8192x1024 S1024x3072 S8192x3072 [1] [0] [0] [1] [] []
  dot_S8192x3072_S3072x1024_S8192x1024_1_0_0_1_n_n_wf : DotDims.WF S8192x3072 S3072x1024 S8192x1024 [1] [0] [0] [1] [] []

variable [Facts₀]

def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf
def dot_S8192x3072_S3072x1024_S8192x1024_1_0_0_1_n_n : DotDims S8192x3072 S3072x1024 S8192x1024 where
  lhsContracting := [1]
  rhsContracting := [0]
  lhsNonContracting := [0]
  rhsNonContracting := [1]
  lhsBatch := []
  rhsBatch := []
  wf := dot_S8192x3072_S3072x1024_S8192x1024_1_0_0_1_n_n_wf

class Facts : Prop extends Facts₀ where

variable [Facts]
-- ==== Proof.StepValue.lean ====
/-
  What one grid step leaves in the output block's staging buffer, as a value.

  A step reads the token block, the block's routes and route weights, the step's expert matrices (the up matrix in
  three runs of 1024 columns, the down matrix in three runs of 1024 rows) and the running output block, and stores
  the running block plus the expert's contribution. At the first expert of a token block the running block is first
  reset to zeros, so the step leaves zeros plus the contribution; at the other experts it adds to what the step before
  left.
-/
import proofs.«131477_j46145128628717_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Step

open Cert.KernelIdeal Cert.KernelIdeal.Gen

variable {F : FTy → Type} [FloatOps F]

theorem hz2 : (![0, 0] : Fin 2 → Nat) = fun _ => 0 := funext fun a => by fin_cases a <;> rfl

/-- The zero block a token block's first step resets the output to. -/
abbrev zeroBlock : FVec F S512x1024 .f32 := k0_pay2

/-- The three runs of 1024 columns of the step's up matrix and of 1024 rows of its down matrix, as the body loads them. -/
abbrev upRun0 (x3 : Vec F S1x1024x3072 .bf16) : Vec F S1x1024x1024 .bf16 :=
  View.ld x3 (Rect.unit (s := S1x1024x3072) ![0, 0, 0] S1x1024x1024.size inb_S1x1024x3072_S1x1024x1024_0_0_0)
abbrev upRun1 (x3 : Vec F S1x1024x3072 .bf16) : Vec F S1x1024x1024 .bf16 :=
  View.ld x3 (Rect.unit (s := S1x1024x3072) ![0, 0, 1024] S1x1024x1024.size inb_S1x1024x3072_S1x1024x1024_0_0_1024)
abbrev upRun2 (x3 : Vec F S1x1024x3072 .bf16) : Vec F S1x1024x1024 .bf16 :=
  View.ld x3 (Rect.unit (s := S1x1024x3072) ![0, 0, 2048] S1x1024x1024.size inb_S1x1024x3072_S1x1024x1024_0_0_2048)
abbrev downRun0 (x4 : Vec F S1x3072x1024 .bf16) : Vec F S1x1024x1024 .bf16 :=
  View.ld x4 (Rect.unit (s := S1x3072x1024) ![0, 0, 0] S1x1024x1024.size inb_S1x3072x1024_S1x1024x1024_0_0_0)
abbrev downRun1 (x4 : Vec F S1x3072x1024 .bf16) : Vec F S1x1024x1024 .bf16 :=
  View.ld x4 (Rect.unit (s := S1x3072x1024) ![0, 1024, 0] S1x1024x1024.size inb_S1x3072x1024_S1x1024x1024_0_1024_0)
abbrev downRun2 (x4 : Vec F S1x3072x1024 .bf16) : Vec F S1x1024x1024 .bf16 :=
  View.ld x4 (Rect.unit (s := S1x3072x1024) ![0, 2048, 0] S1x1024x1024.size inb_S1x3072x1024_S1x1024x1024_0_2048_0)

/-- The block a step stores, from the blocks it reads and the running output block. -/
def stepVal (i : grid0.Coords) (x0 : Vec F S512x1024 .bf16) (x1 : Vec F S512x2 .i32) (x2 : Vec F S512x2 .f32)
    (x3 : Vec F S1x1024x3072 .bf16) (x4 : Vec F S1x3072x1024 .bf16) (acc : Vec F S512x1024 .f32) :
    FVec F S512x1024 .f32 :=
  k0_pay1 (k0_pay3 i x1 x2) (k0_pay4 x0) (k0_pay5 x0 (upRun0 x3) (downRun0 x4)) (k0_pay6 x0 (upRun1 x3))
    (k0_pay7 (downRun1 x4)) (constant S512x1024 .f32 0x00000000#32) (upRun2 x3) (downRun2 x4) acc

/-- A step that is not a token block's first leaves the stored block over the running block it found. -/
theorem out_later (c : Dev nD) (i : grid0.Coords) (a2 : Memref sig .tc .vmem S512x1024 .bf16) (h2 : a2.IsWhole)
    (a3 : Memref sig .tc .vmem S512x2 .i32) (h3 : a3.IsWhole) (a4 : Memref sig .tc .vmem S512x2 .f32) (h4 : a4.IsWhole)
    (a5 : Memref sig .tc .vmem S1x1024x3072 .bf16) (h5 : a5.IsWhole) (a6 : Memref sig .tc .vmem S1x3072x1024 .bf16) (h6 : a6.IsWhole)
    (a7 : Memref sig .tc .vmem S512x1024 .f32) (h7 : a7.IsWhole) (hc : ¬cond0_0 i)
    (x0 : Vec F S512x1024 .bf16) (x1 : Vec F S512x2 .i32) (x2 : Vec F S512x2 .f32) (x3 : Vec F S1x1024x3072 .bf16)
    (x4 : Vec F S1x3072x1024 .bf16) (xo : Vec F S512x1024 .f32) :
    out0_B_5 c i a2 h2 a3 h3 a4 h4 a5 h5 a6 h6 a7 h7 hc x0 x1 x2 x3 x4 xo = stepVal i x0 x1 x2 x3 x4 xo := by
  unfold out0_B_5
  rw [View.read_writes_eq_canon _ _ _ (cover0_B_5 c i a2 h2 a3 h3 a4 h4 a5 h5 a6 h6 a7 h7 hc x0 x1 x2 x3 x4 xo)]
  unfold kernelRun0_B
  dsimp only
  sl_unfold_words
  rw [View.canon_unit_zero hz2]
  simp only [View.readAt_eq_ld, h2.read_unread, h3.read_unread, h4.read_unread, h5.read_unread, h6.read_unread,
    h7.read_unread, View.ld_unit_zero (S := S512x1024) hz2, View.ld_unit_zero (S := S512x2) hz2]
  rfl

/-- A token block's first step resets the running block to zeros, reads it back, and leaves the stored block over
    zeros. -/
theorem out_first (c : Dev nD) (i : grid0.Coords) (a2 : Memref sig .tc .vmem S512x1024 .bf16) (h2 : a2.IsWhole)
    (a3 : Memref sig .tc .vmem S512x2 .i32) (h3 : a3.IsWhole) (a4 : Memref sig .tc .vmem S512x2 .f32) (h4 : a4.IsWhole)
    (a5 : Memref sig .tc .vmem S1x1024x3072 .bf16) (h5 : a5.IsWhole) (a6 : Memref sig .tc .vmem S1x3072x1024 .bf16) (h6 : a6.IsWhole)
    (a7 : Memref sig .tc .vmem S512x1024 .f32) (h7 : a7.IsWhole) (hc : cond0_0 i)
    (x0 : Vec F S512x1024 .bf16) (x1 : Vec F S512x2 .i32) (x2 : Vec F S512x2 .f32) (x3 : Vec F S1x1024x3072 .bf16)
    (x4 : Vec F S1x3072x1024 .bf16) :
    out0_A_5 c i a2 h2 a3 h3 a4 h4 a5 h5 a6 h6 a7 h7 hc x0 x1 x2 x3 x4 = stepVal i x0 x1 x2 x3 x4 zeroBlock := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S512x1024) hz2, View.readCov_unit_zero (S := S512x1024) _ hz2]
  simp only [View.readAt_eq_ld, h2.read_unread, h3.read_unread, h4.read_unread, h5.read_unread, h6.read_unread,
    View.ld_unit_zero (S := S512x1024) hz2, View.ld_unit_zero (S := S512x2) hz2]
  rfl

end Cert.KernelIdeal.Step

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«131477_j46145128628717_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibFinGroups.lean ====
/-
  A sum over a·b consecutive naturals, grouped into a groups of b: ∑_{n < a·b} f n = ∑_{g < a} ∑_{j < b} f (b·g + j),
  in any commutative additive monoid.
-/
import Mathlib.Algebra.BigOperators.Fin
import Mathlib.Logic.Equiv.Fin.Basic

open scoped BigOperators

namespace Cert.Lib.FinGroups

/-- The sum over n < a·b of f n is the sum over the a groups of the sums over each group's b members. -/
theorem sum_fin_groups {M : Type*} [AddCommMonoid M] (a b : ℕ) (f : ℕ → M) :
    ∑ n : Fin (a * b), f n.val = ∑ g : Fin a, ∑ j : Fin b, f (b * g.val + j.val) := by
  rw [← Fintype.sum_prod_type']
  refine (Fintype.sum_equiv (finProdFinEquiv (m := a) (n := b)) _ (fun n => f n.val) fun x => ?_).symm
  show f (b * x.1.val + x.2.val) = f (x.2.val + b * x.1.val)
  rw [Nat.add_comm]

end Cert.Lib.FinGroups
-- ==== Proof.Routing.lean ====
/-
  Dense mixture-of-experts routing on the extended reals, as functions of whole arrays.

  Every token (a row of X) is sent through every expert e — two matrix products, X·Uₑ then ·Dₑ — and the result is
  scaled by the token's combined routing weight for e: the sum, over the token's routes, of the route's weight where
  the route names e and of zero elsewhere. The output is the sum over the experts, taken in expert order from zero:
  ((0 + t₀) + t₁) + … + t₇.

  The contraction of the second product runs over 3072 coordinates; taken as three runs of 1024 and added up from zero
  it is the same sum, because addition of extended reals is commutative and associative (no finiteness is asked).
  Nothing here mentions a program.
-/
import Idealize.ShloMosaic.PureOps.Ideal.Laws
import Idealize.ShloMosaic.Lib.ValueIdx
import Idealize.ShloMosaic.Lib.Pipeline.Value
import proofs.«131477_j46145128628717_2_alg».proof.Proof.LibMatProd
import proofs.«131477_j46145128628717_2_alg».proof.Proof.LibFinGroups

open scoped BigOperators

noncomputable section

namespace Cert.Routing

open Idealize.ShloMosaic Idealize.ShloMosaic.ValueIdx Cert.Lib.MatProd

/-- The value of the zero word. -/
abbrev zeroW : EReal := Ideal.ofBits .f32 0x00000000#32

theorem zeroW_eq : zeroW = 0 := Ideal.ofBits_zero_f32

/-! ## A sum over 3072 coordinates as three runs of 1024 -/

/-- A function on the coordinates below 3072, continued by zero to every natural number. -/
def ext0 {M : Type} [Zero M] (f : Fin 3072 → M) (n : ℕ) : M := if h : n < 3072 then f ⟨n, h⟩ else 0

theorem ext0_of_lt {M : Type} [Zero M] (f : Fin 3072 → M) (n : ℕ) (h : n < 3072) : ext0 f n = f ⟨n, h⟩ := dif_pos h

/-- A sum over c < 3072 is the sum of the three sums over c < 1024 of the summand at c, 1024 + c and 2048 + c. -/
theorem sum_three_runs {M : Type} [AddCommMonoid M] (f : Fin 3072 → M) :
    ∑ c : Fin 3072, f c
      = ((∑ c : Fin 1024, f ⟨c.val, by have := c.isLt; omega⟩)
          + ∑ c : Fin 1024, f ⟨1024 + c.val, by have := c.isLt; omega⟩)
          + ∑ c : Fin 1024, f ⟨2048 + c.val, by have := c.isLt; omega⟩ := by
  have h1 : ∑ c : Fin 3072, f c = ∑ n : Fin (3 * 1024), ext0 f n.val :=
    Finset.sum_congr rfl fun c _ => (ext0_of_lt f c.val c.isLt).symm
  rw [h1, Cert.Lib.FinGroups.sum_fin_groups 3 1024 (ext0 f), Fin.sum_univ_three]
  have e0 : ∑ j : Fin 1024, ext0 f (1024 * ((0 : Fin 3) : ℕ) + j.val) = ∑ c : Fin 1024, f ⟨c.val, by have := c.isLt; omega⟩ :=
    Finset.sum_congr rfl fun c _ => by
      have hc := c.isLt
      refine (ext0_of_lt f (1024 * 0 + c.val) (by omega)).trans (congrArg f (Fin.ext ?_))
      show 1024 * 0 + c.val = c.val
      omega
  have e1 : ∑ j : Fin 1024, ext0 f (1024 * ((1 : Fin 3) : ℕ) + j.val) = ∑ c : Fin 1024, f ⟨1024 + c.val, by have := c.isLt; omega⟩ :=
    Finset.sum_congr rfl fun c _ => by
      have hc := c.isLt
      refine (ext0_of_lt f (1024 * 1 + c.val) (by omega)).trans (congrArg f (Fin.ext ?_))
      show 1024 * 1 + c.val = 1024 + c.val
      omega
  have e2 : ∑ j : Fin 1024, ext0 f (1024 * ((2 : Fin 3) : ℕ) + j.val) = ∑ c : Fin 1024, f ⟨2048 + c.val, by have := c.isLt; omega⟩ :=
    Finset.sum_congr rfl fun c _ => by
      have hc := c.isLt
      refine (ext0_of_lt f (1024 * 2 + c.val) (by omega)).trans (congrArg f (Fin.ext ?_))
      show 1024 * 2 + c.val = 2048 + c.val
      omega
  rw [e0, e1, e2]

/-! ## One expert, and the routing weight -/

section
variable {T : Nat}

/-- One expert applied to every row: X·U, then ·D. -/
def expert (X : (⟨2, ![T, 1024]⟩ : Shape).Idx → EReal) (U : (⟨2, ![1024, 3072]⟩ : Shape).Idx → EReal)
    (D : (⟨2, ![3072, 1024]⟩ : Shape).Idx → EReal) : (⟨2, ![T, 1024]⟩ : Shape).Idx → EReal :=
  matProd (matProd X U) D

/-- An entry of the expert's output depends on one row of X only. -/
theorem expert_row {T' : Nat} (X : (⟨2, ![T, 1024]⟩ : Shape).Idx → EReal) (X' : (⟨2, ![T', 1024]⟩ : Shape).Idx → EReal)
    (U : (⟨2, ![1024, 3072]⟩ : Shape).Idx → EReal) (D : (⟨2, ![3072, 1024]⟩ : Shape).Idx → EReal)
    (p : Fin T') (r : Fin T) (q : Fin 1024) (hX : ∀ k : Fin 1024, X' (ix2 p k) = X (ix2 r k)) :
    expert X' U D (ix2 p q) = expert X U D (ix2 r q) := by
  unfold expert
  refine matProd_block (matProd X U) (matProd X' U) D D p q r q (fun c => ?_) (fun _ => rfl)
  exact matProd_block X X' U U p c r c hX (fun _ => rfl)

/-- The expert's second contraction taken as three runs of 1024 coordinates, added up from the zero word: U₀, U₁, U₂ are
    the three runs of 1024 columns of U and D₀, D₁, D₂ the three runs of 1024 rows of D. -/
theorem expert_runs (A : (⟨2, ![T, 1024]⟩ : Shape).Idx → EReal) (U : (⟨2, ![1024, 3072]⟩ : Shape).Idx → EReal)
    (D : (⟨2, ![3072, 1024]⟩ : Shape).Idx → EReal)
    (U0 U1 U2 D0 D1 D2 : (⟨2, ![1024, 1024]⟩ : Shape).Idx → EReal)
    (hU0 : ∀ (k c : Fin 1024), U0 (ix2 k c) = U (ix2 k ⟨c.val, by have := c.isLt; omega⟩))
    (hU1 : ∀ (k c : Fin 1024), U1 (ix2 k c) = U (ix2 k ⟨1024 + c.val, by have := c.isLt; omega⟩))
    (hU2 : ∀ (k c : Fin 1024), U2 (ix2 k c) = U (ix2 k ⟨2048 + c.val, by have := c.isLt; omega⟩))
    (hD0 : ∀ (c q : Fin 1024), D0 (ix2 c q) = D (ix2 ⟨c.val, by have := c.isLt; omega⟩ q))
    (hD1 : ∀ (c q : Fin 1024), D1 (ix2 c q) = D (ix2 ⟨1024 + c.val, by have := c.isLt; omega⟩ q))
    (hD2 : ∀ (c q : Fin 1024), D2 (ix2 c q) = D (ix2 ⟨2048 + c.val, by have := c.isLt; omega⟩ q))
    (a : Fin T) (b : Fin 1024) :
    ((zeroW + matProd (matProd A U0) D0 (ix2 a b)) + matProd (matProd A U1) D1 (ix2 a b))
        + matProd (matProd A U2) D2 (ix2 a b)
      = expert A U D (ix2 a b) := by
  unfold expert
  rw [zeroW_eq, zero_add]
  simp only [matProd_apply, hU0, hU1, hU2, hD0, hD1, hD2]
  exact (sum_three_runs fun c : Fin 3072 => (∑ k : Fin 1024, A (ix2 a k) * U (ix2 k c)) * D (ix2 c b)).symm

/-- The combined routing weight of token p for the expert whose number is the word e: the sum over the token's two
    routes of the route's weight where the route names e, of the zero word elsewhere. -/
def gate (I : (⟨2, ![T, 2]⟩ : Shape).Idx → BitVec 32) (W : (⟨2, ![T, 2]⟩ : Shape).Idx → EReal) (e : BitVec 32)
    (p : Fin T) : EReal :=
  ∑ k : Fin 2, Scalar.select (IntOp.cmpi .eq (I (ix2 p k)) e) (W (ix2 p k)) zeroW

/-- The routing weight of a token depends on that token's routes only. -/
theorem gate_row {T' : Nat} (I : (⟨2, ![T, 2]⟩ : Shape).Idx → BitVec 32) (W : (⟨2, ![T, 2]⟩ : Shape).Idx → EReal)
    (I' : (⟨2, ![T', 2]⟩ : Shape).Idx → BitVec 32) (W' : (⟨2, ![T', 2]⟩ : Shape).Idx → EReal) (e : BitVec 32)
    (p : Fin T') (r : Fin T) (hI : ∀ k : Fin 2, I' (ix2 p k) = I (ix2 r k)) (hW : ∀ k : Fin 2, W' (ix2 p k) = W (ix2 r k)) :
    gate I' W' e p = gate I W e r := by
  unfold gate
  exact Finset.sum_congr rfl fun k _ => by rw [hI k, hW k]

/-- One expert's contribution: its output, each row scaled by the row's routing weight for it. -/
def term (X : (⟨2, ![T, 1024]⟩ : Shape).Idx → EReal) (I : (⟨2, ![T, 2]⟩ : Shape).Idx → BitVec 32)
    (W : (⟨2, ![T, 2]⟩ : Shape).Idx → EReal) (U : (⟨2, ![1024, 3072]⟩ : Shape).Idx → EReal)
    (D : (⟨2, ![3072, 1024]⟩ : Shape).Idx → EReal) (e : BitVec 32) : (⟨2, ![T, 1024]⟩ : Shape).Idx → EReal :=
  fun i => expert X U D i * gate I W e ⟨(i 0).val, idx2_lt0 i⟩

theorem term_apply (X : (⟨2, ![T, 1024]⟩ : Shape).Idx → EReal) (I : (⟨2, ![T, 2]⟩ : Shape).Idx → BitVec 32)
    (W : (⟨2, ![T, 2]⟩ : Shape).Idx → EReal) (U : (⟨2, ![1024, 3072]⟩ : Shape).Idx → EReal)
    (D : (⟨2, ![3072, 1024]⟩ : Shape).Idx → EReal) (e : BitVec 32) (a : Fin T) (b : Fin 1024) :
    term X I W U D e (ix2 a b) = expert X U D (ix2 a b) * gate I W e a := rfl

/-- Expert e's matrix out of a stack of eight (e read modulo 8). -/
def slab {a b : Nat} (A : (⟨3, ![8, a, b]⟩ : Shape).Idx → EReal) (e : ℕ) : (⟨2, ![a, b]⟩ : Shape).Idx → EReal :=
  fun j => A (ix3 ⟨e % 8, Nat.mod_lt e (by decide)⟩ ⟨(j 0).val, idx2_lt0 j⟩ ⟨(j 1).val, idx2_lt1 j⟩)

theorem slab_apply {a b : Nat} (A : (⟨3, ![8, a, b]⟩ : Shape).Idx → EReal) (e : ℕ) (p : Fin a) (q : Fin b) :
    slab A e (ix2 p q) = A (ix3 ⟨e % 8, Nat.mod_lt e (by decide)⟩ p q) := rfl

/-- Expert e's contribution, its matrices taken out of the two stacks. -/
def contrib (X : (⟨2, ![T, 1024]⟩ : Shape).Idx → EReal) (I : (⟨2, ![T, 2]⟩ : Shape).Idx → BitVec 32)
    (W : (⟨2, ![T, 2]⟩ : Shape).Idx → EReal) (U : (⟨3, ![8, 1024, 3072]⟩ : Shape).Idx → EReal)
    (D : (⟨3, ![8, 3072, 1024]⟩ : Shape).Idx → EReal) (e : ℕ) : (⟨2, ![T, 1024]⟩ : Shape).Idx → EReal :=
  term X I W (slab U e) (slab D e) (BitVec.ofNat 32 e)

/-- The output after the experts 0 … n, added in that order from the zero word. -/
def routed (X : (⟨2, ![T, 1024]⟩ : Shape).Idx → EReal) (I : (⟨2, ![T, 2]⟩ : Shape).Idx → BitVec 32)
    (W : (⟨2, ![T, 2]⟩ : Shape).Idx → EReal) (U : (⟨3, ![8, 1024, 3072]⟩ : Shape).Idx → EReal)
    (D : (⟨3, ![8, 3072, 1024]⟩ : Shape).Idx → EReal) : ℕ → (⟨2, ![T, 1024]⟩ : Shape).Idx → EReal
  | 0 => fun i => zeroW + contrib X I W U D 0 i
  | n + 1 => fun i => routed X I W U D n i + contrib X I W U D (n + 1) i

theorem routed_zero (X : (⟨2, ![T, 1024]⟩ : Shape).Idx → EReal) (I : (⟨2, ![T, 2]⟩ : Shape).Idx → BitVec 32)
    (W : (⟨2, ![T, 2]⟩ : Shape).Idx → EReal) (U : (⟨3, ![8, 1024, 3072]⟩ : Shape).Idx → EReal)
    (D : (⟨3, ![8, 3072, 1024]⟩ : Shape).Idx → EReal) (i : (⟨2, ![T, 1024]⟩ : Shape).Idx) :
    routed X I W U D 0 i = zeroW + contrib X I W U D 0 i := rfl

theorem routed_succ (X : (⟨2, ![T, 1024]⟩ : Shape).Idx → EReal) (I : (⟨2, ![T, 2]⟩ : Shape).Idx → BitVec 32)
    (W : (⟨2, ![T, 2]⟩ : Shape).Idx → EReal) (U : (⟨3, ![8, 1024, 3072]⟩ : Shape).Idx → EReal)
    (D : (⟨3, ![8, 3072, 1024]⟩ : Shape).Idx → EReal) (n : ℕ) (i : (⟨2, ![T, 1024]⟩ : Shape).Idx) :
    routed X I W U D (n + 1) i = routed X I W U D n i + contrib X I W U D (n + 1) i := rfl

/-- All eight experts, written out. -/
theorem routed_seven (X : (⟨2, ![T, 1024]⟩ : Shape).Idx → EReal) (I : (⟨2, ![T, 2]⟩ : Shape).Idx → BitVec 32)
    (W : (⟨2, ![T, 2]⟩ : Shape).Idx → EReal) (U : (⟨3, ![8, 1024, 3072]⟩ : Shape).Idx → EReal)
    (D : (⟨3, ![8, 3072, 1024]⟩ : Shape).Idx → EReal) (i : (⟨2, ![T, 1024]⟩ : Shape).Idx) :
    routed X I W U D 7 i
      = zeroW + contrib X I W U D 0 i + contrib X I W U D 1 i + contrib X I W U D 2 i + contrib X I W U D 3 i
          + contrib X I W U D 4 i + contrib X I W U D 5 i + contrib X I W U D 6 i + contrib X I W U D 7 i := rfl

end

end Cert.Routing

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.StepEntry.lean ====
/-
  The block a grid step stores, read at an entry, at the ideal values: the running entry plus the expert's output
  for the block's row — the second contraction taken in three runs of 1024 coordinates, added up from the zero word —
  times the row's routing weight for the step's expert.
-/
import proofs.«131477_j46145128628717_2_alg».proof.Proof.StepValue
import proofs.«131477_j46145128628717_2_alg».proof.Proof.Routing
import proofs.«131477_j46145128628717_2_alg».proof.Proof.LibRowReductions

open scoped BigOperators

noncomputable section

open Idealize.ShloMosaic Idealize.ShloMosaic.ValueIdx

namespace Cert.KernelIdeal.Step

open Cert.KernelIdeal Cert.KernelIdeal.Gen Cert.Lib.MatProd Cert.Routing

/-- A 1×1024×1024 run of an expert matrix as a 1024×1024 matrix. -/
def flat (u : Vec Ideal S1x1024x1024 .bf16) : (⟨2, ![1024, 1024]⟩ : Shape).Idx → EReal :=
  fun j => u (Fin.cons ⟨0, Nat.one_pos⟩ j)

theorem shapeCast_run (u : Vec Ideal S1x1024x1024 .bf16) :
    shapeCast S1024x1024 u shapeCasts_S1x1024x1024_S1024x1024 = flat u :=
  funext fun j => shapeCast_dropUnit_apply ![1024, 1024] u shapeCasts_S1x1024x1024_S1024x1024 j

theorem matmul_eq (A : FVec Ideal S512x1024 .bf16) (B : FVec Ideal S1024x1024 .bf16) :
    matmul dot_S512x1024_S1024x1024_S512x1024_1_0_0_1_n_n none A B (constant S512x1024 .f32 0x00000000#32) = matProd A B :=
  matmul_zero_eq_matProd dot_S512x1024_S1024x1024_S512x1024_1_0_0_1_n_n rfl rfl rfl rfl rfl rfl none A B

theorem truncf_eq (v : FVec Ideal S512x1024 .f32) : truncf .bf16 v bitsLt_bf16_f32 = v := rfl

/-- The per-row routing weights of the block, spread over the block's columns, at an entry. -/
theorem gate_entry (ew : BitVec 32) (x1 : Vec Ideal S512x2 .i32) (x2 : Vec Ideal S512x2 .f32) (p : Fin 512) (q : Fin 1024) :
    broadcastTo S512x1024 (shapeCast S512x1 (multiReduction .add [1] S512
        (select (cmpi .eq x1 (broadcast S512x2 ew)) x2 (broadcast S512x2 (Scalar.ofBits (F := Ideal) .f32 0x00000000#32)))
        0x00000000#32 reduces_S512x2_S512 (.inl rfl) rfl) shapeCasts_S512_S512x1) broadcasts_S512x1_S512x1024 (ix2 p q)
      = gate x1 x2 ew p := by
  rw [Cert.Lib.RowReductions.broadcast_col_apply, Cert.Lib.RowReductions.shapeCast_col_apply]
  exact Cert.Lib.RowReductions.rowsum_apply (a := 512) (b := 2) _ 0x00000000#32 reduces_S512x2_S512 (.inl rfl) rfl p

theorem stepVal_entry (i : grid0.Coords) (x0 : Vec Ideal S512x1024 .bf16) (x1 : Vec Ideal S512x2 .i32)
    (x2 : Vec Ideal S512x2 .f32) (x3 : Vec Ideal S1x1024x3072 .bf16) (x4 : Vec Ideal S1x3072x1024 .bf16)
    (acc : Vec Ideal S512x1024 .f32) (p : Fin 512) (q : Fin 1024) :
    stepVal (F := Ideal) i x0 x1 x2 x3 x4 acc (ix2 p q)
      = acc (ix2 p q)
        + (((zeroW + matProd (matProd x0 (flat (upRun0 x3))) (flat (downRun0 x4)) (ix2 p q))
              + matProd (matProd x0 (flat (upRun1 x3))) (flat (downRun1 x4)) (ix2 p q))
            + matProd (matProd x0 (flat (upRun2 x3))) (flat (downRun2 x4)) (ix2 p q))
          * gate x1 x2 (BitVec.ofNat 32 (i 1).val) p := by
  unfold stepVal k0_pay1 k0_pay3 k0_pay5 k0_pay6 k0_pay7 k0_pay4
  simp only [shapeCast_self, matmul_eq, truncf_eq]
  rw [shapeCast_run (upRun0 x3), shapeCast_run (upRun1 x3), shapeCast_run (upRun2 x3), shapeCast_run (downRun0 x4),
    shapeCast_run (downRun1 x4), shapeCast_run (downRun2 x4)]
  exact congrArg (fun g : EReal => acc (ix2 p q)
        + (((zeroW + matProd (matProd x0 (flat (upRun0 x3))) (flat (downRun0 x4)) (ix2 p q))
              + matProd (matProd x0 (flat (upRun1 x3))) (flat (downRun1 x4)) (ix2 p q))
            + matProd (matProd x0 (flat (upRun2 x3))) (flat (downRun2 x4)) (ix2 p q)) * g)
    (gate_entry (BitVec.ofNat 32 (i 1).val) x1 x2 p q)

/-! ## The three runs of each expert matrix, read at an entry -/

theorem flat_upRun0 (x3 : Vec Ideal S1x1024x3072 .bf16) (k c : Fin 1024) :
    flat (upRun0 x3) (ix2 k c) = x3 (ix3 0 k ⟨c.val, by have := c.isLt; omega⟩) := by
  show x3 _ = x3 _
  refine congrArg x3 (funext fun a => Fin.ext ?_)
  match a with
  | ⟨0, _⟩ => rfl
  | ⟨1, _⟩ => show 0 + 1 * k.val = k.val; omega
  | ⟨2, _⟩ => show 0 + 1 * c.val = c.val; omega

theorem flat_upRun1 (x3 : Vec Ideal S1x1024x3072 .bf16) (k c : Fin 1024) :
    flat (upRun1 x3) (ix2 k c) = x3 (ix3 0 k ⟨1024 + c.val, by have := c.isLt; omega⟩) := by
  show x3 _ = x3 _
  refine congrArg x3 (funext fun a => Fin.ext ?_)
  match a with
  | ⟨0, _⟩ => rfl
  | ⟨1, _⟩ => show 0 + 1 * k.val = k.val; omega
  | ⟨2, _⟩ => show 1024 + 1 * c.val = 1024 + c.val; omega

theorem flat_upRun2 (x3 : Vec Ideal S1x1024x3072 .bf16) (k c : Fin 1024) :
    flat (upRun2 x3) (ix2 k c) = x3 (ix3 0 k ⟨2048 + c.val, by have := c.isLt; omega⟩) := by
  show x3 _ = x3 _
  refine congrArg x3 (funext fun a => Fin.ext ?_)
  match a with
  | ⟨0, _⟩ => rfl
  | ⟨1, _⟩ => show 0 + 1 * k.val = k.val; omega
  | ⟨2, _⟩ => show 2048 + 1 * c.val = 2048 + c.val; omega

theorem flat_downRun0 (x4 : Vec Ideal S1x3072x1024 .bf16) (c q : Fin 1024) :
    flat (downRun0 x4) (ix2 c q) = x4 (ix3 0 ⟨c.val, by have := c.isLt; omega⟩ q) := by
  show x4 _ = x4 _
  refine congrArg x4 (funext fun a => Fin.ext ?_)
  match a with
  | ⟨0, _⟩ => rfl
  | ⟨1, _⟩ => show 0 + 1 * c.val = c.val; omega
  | ⟨2, _⟩ => show 0 + 1 * q.val = q.val; omega

theorem flat_downRun1 (x4 : Vec Ideal S1x3072x1024 .bf16) (c q : Fin 1024) :
    flat (downRun1 x4) (ix2 c q) = x4 (ix3 0 ⟨1024 + c.val, by have := c.isLt; omega⟩ q) := by
  show x4 _ = x4 _
  refine congrArg x4 (funext fun a => Fin.ext ?_)
  match a with
  | ⟨0, _⟩ => rfl
  | ⟨1, _⟩ => show 1024 + 1 * c.val = 1024 + c.val; omega
  | ⟨2, _⟩ => show 0 + 1 * q.val = q.val; omega

theorem flat_downRun2 (x4 : Vec Ideal S1x3072x1024 .bf16) (c q : Fin 1024) :
    flat (downRun2 x4) (ix2 c q) = x4 (ix3 0 ⟨2048 + c.val, by have := c.isLt; omega⟩ q) := by
  show x4 _ = x4 _
  refine congrArg x4 (funext fun a => Fin.ext ?_)
  match a with
  | ⟨0, _⟩ => rfl
  | ⟨1, _⟩ => show 2048 + 1 * c.val = 2048 + c.val; omega
  | ⟨2, _⟩ => show 0 + 1 * q.val = q.val; omega

end Cert.KernelIdeal.Step

end
-- ==== Proof.KernelRouted.lean ====
/-
  The kernel's run as a value, at the ideal values.

  The grid has 16 token blocks of 512 rows and, inside each, 8 experts; point t is token block t / 8 and expert t % 8.
  The output block of a token block stays in its staging buffer over the eight experts and is written back after the
  last. After point t the buffer holds, at (p, q), the routed output after the experts 0 … t % 8 at row
  512·(t / 8) + p: by induction on the point, a token block's first point starting from zeros and every other point
  adding to what the point before left. So each block written back is a block of the output after all eight experts,
  the blocks tile the 8192 rows, and the result is that output laid out as 4×2048×1024.
-/
import proofs.«131477_j46145128628717_2_alg».proof.Proof.StepEntry
import Idealize.ShloMosaic.Lib.Pipeline.Value
import Idealize.ShloMosaic.Lib.StableHlo.Run
import Idealize.ShloMosaic.Lib.Tactic

set_option maxRecDepth 16384

open scoped BigOperators

noncomputable section

open Idealize.ShloMosaic Idealize.ShloMosaic.TcCoe Idealize.SL.Sem Idealize.ShloMosaic.ValueIdx
open Idealize.ShloMosaic.Pipeline (Dat)

namespace Cert.KernelIdeal.Routed

open Cert.KernelIdeal Cert.KernelIdeal.Gen Cert.KernelIdeal.Step Cert.Routing Cert.Lib.MatProd

variable (m : (ℓ : Loc nD τ sig) → Buf (Elt Ideal) ℓ) (ρ : Dev nD → PrngReg)

/-! ## The arguments as the kernel reads them -/

/-- The tokens as 8192 rows, their routes and route weights likewise, and the two stacks of expert matrices. -/
abbrev rows (c : Dev nD) : S8192x1024.Idx → EReal :=
  shapeCast S8192x1024 (m ((c : Thread nD τ).loc main_arg0)) shapeCasts_S4x2048x1024_S8192x1024
abbrev routes (c : Dev nD) : S8192x2.Idx → BitVec 32 :=
  shapeCast S8192x2 (m ((c : Thread nD τ).loc main_arg1)) shapeCasts_S4x2048x2_S8192x2
abbrev weights (c : Dev nD) : S8192x2.Idx → EReal :=
  shapeCast S8192x2 (m ((c : Thread nD τ).loc main_arg2)) shapeCasts_S4x2048x2_S8192x2
abbrev ups (c : Dev nD) : S8x1024x3072.Idx → EReal := m ((c : Thread nD τ).loc main_arg3)
abbrev downs (c : Dev nD) : S8x3072x1024.Idx → EReal := m ((c : Thread nD τ).loc main_arg4)

/-- What the region finds in its operand arrays: the re-shaped arguments (a change of float format is the identity). -/
theorem V_rows (c : Dev nD) : (V m c main_v1 : S8192x1024.Idx → EReal) = rows m c := by
  show StableHlo.after hostOps0 (fun b => m (c, b)) (Proc.devRef .tc main_v1) = _
  after_results
  rfl
theorem V_routes (c : Dev nD) : (V m c main_v2 : S8192x2.Idx → BitVec 32) = routes m c := by
  show StableHlo.after hostOps0 (fun b => m (c, b)) (Proc.devRef .tc main_v2) = _
  after_results
  rfl
theorem V_weights (c : Dev nD) : (V m c main_v3 : S8192x2.Idx → EReal) = weights m c := by
  show StableHlo.after hostOps0 (fun b => m (c, b)) (Proc.devRef .tc main_v3) = _
  after_results
  rfl
theorem V_ups (c : Dev nD) : (V m c main_v4 : S8x1024x3072.Idx → EReal) = ups m c := by
  show StableHlo.after hostOps0 (fun b => m (c, b)) (Proc.devRef .tc main_v4) = _
  after_results
  rfl
theorem V_downs (c : Dev nD) : (V m c main_v5 : S8x3072x1024.Idx → EReal) = downs m c := by
  show StableHlo.after hostOps0 (fun b => m (c, b)) (Proc.devRef .tc main_v5) = _
  after_results
  rfl

/-! ## Where each block sits -/

/-- The printed index maps, decided over the grid: the token-side blocks and the output block follow the token block
    t / 8, the expert matrices the expert t % 8, which is also the body's second grid coordinate. -/
theorem idx_facts : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 3) = t.val % 8 ∧ win0_3.index t (1 : Fin 3) = 0 ∧ win0_3.index t (2 : Fin 3) = 0
    ∧ win0_4.index t (0 : Fin 3) = t.val % 8 ∧ win0_4.index t (1 : Fin 3) = 0 ∧ win0_4.index t (2 : Fin 3) = 0
    ∧ win0_5.index t (0 : Fin 2) = t.val / 8 ∧ win0_5.index t (1 : Fin 2) = 0
    ∧ ((grid0.coords t) 1).val = t.val % 8 :=
  (by decide +kernel : ∀ t : Fin grid0.N, _)

theorem tok_entry (c : Dev nD) (t : Fin cfg0.N) (p : Fin 512) (k : Fin 1024) (r : Fin 8192)
    (hr : r.val = 512 * (t.val / 8) + p.val) :
    (iblk m c 0 t : Vec Ideal S512x1024 .bf16) (ix2 p k) = rows m c (ix2 r k) := by
  unfold iblk
  rw [View.read_apply]
  show V m c main_v1 _ = _
  rw [V_rows]
  refine congrArg (rows m c) (funext fun a => Fin.ext ?_)
  obtain ⟨e0, e1, -⟩ := idx_facts t
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

theorem route_entry (c : Dev nD) (t : Fin cfg0.N) (p : Fin 512) (k : Fin 2) (r : Fin 8192)
    (hr : r.val = 512 * (t.val / 8) + p.val) :
    (iblk m c 1 t : Vec Ideal S512x2 .i32) (ix2 p k) = routes m c (ix2 r k) := by
  unfold iblk
  rw [View.read_apply]
  show V m c main_v2 _ = _
  rw [V_routes]
  refine congrArg (routes m c) (funext fun a => Fin.ext ?_)
  obtain ⟨-, -, e0, e1, -⟩ := idx_facts t
  match a with
  | ⟨0, _⟩ => show win0_1.index t (0 : Fin 2) * 512 + 1 * p.val = r.val; rw [e0, hr]; omega
  | ⟨1, _⟩ => show win0_1.index t (1 : Fin 2) * 2 + 1 * k.val = k.val; rw [e1]; omega

theorem weight_entry (c : Dev nD) (t : Fin cfg0.N) (p : Fin 512) (k : Fin 2) (r : Fin 8192)
    (hr : r.val = 512 * (t.val / 8) + p.val) :
    (iblk m c 2 t : Vec Ideal S512x2 .f32) (ix2 p k) = weights m c (ix2 r k) := by
  unfold iblk
  rw [View.read_apply]
  show V m c main_v3 _ = _
  rw [V_weights]
  refine congrArg (weights m c) (funext fun a => Fin.ext ?_)
  obtain ⟨-, -, -, -, e0, e1, -⟩ := idx_facts t
  match a with
  | ⟨0, _⟩ => show win0_2.index t (0 : Fin 2) * 512 + 1 * p.val = r.val; rw [e0, hr]; omega
  | ⟨1, _⟩ => show win0_2.index t (1 : Fin 2) * 2 + 1 * k.val = k.val; rw [e1]; omega

theorem up_entry (c : Dev nD) (t : Fin cfg0.N) (k : Fin 1024) (cc : Fin 3072) :
    (iblk m c 3 t : Vec Ideal S1x1024x3072 .bf16) (ix3 0 k cc) = slab (ups m c) (t.val % 8) (ix2 k cc) := by
  unfold iblk
  rw [View.read_apply, slab_apply]
  show V m c main_v4 _ = _
  rw [V_ups]
  refine congrArg (ups m c) (funext fun a => Fin.ext ?_)
  obtain ⟨-, -, -, -, -, -, e0, e1, e2, -⟩ := idx_facts t
  match a with
  | ⟨0, _⟩ => show win0_3.index t (0 : Fin 3) * 1 + 1 * ((0 : Fin 1) : ℕ) = t.val % 8 % 8; rw [e0]; simp
  | ⟨1, _⟩ => show win0_3.index t (1 : Fin 3) * 1024 + 1 * k.val = k.val; rw [e1]; omega
  | ⟨2, _⟩ => show win0_3.index t (2 : Fin 3) * 3072 + 1 * cc.val = cc.val; rw [e2]; omega

theorem down_entry (c : Dev nD) (t : Fin cfg0.N) (cc : Fin 3072) (q : Fin 1024) :
    (iblk m c 4 t : Vec Ideal S1x3072x1024 .bf16) (ix3 0 cc q) = slab (downs m c) (t.val % 8) (ix2 cc q) := by
  unfold iblk
  rw [View.read_apply, slab_apply]
  show V m c main_v5 _ = _
  rw [V_downs]
  refine congrArg (downs m c) (funext fun a => Fin.ext ?_)
  obtain ⟨-, -, -, -, -, -, -, -, -, e0, e1, e2, -⟩ := idx_facts t
  match a with
  | ⟨0, _⟩ => show win0_4.index t (0 : Fin 3) * 1 + 1 * ((0 : Fin 1) : ℕ) = t.val % 8 % 8; rw [e0]; simp
  | ⟨1, _⟩ => show win0_4.index t (1 : Fin 3) * 3072 + 1 * cc.val = cc.val; rw [e1]; omega
  | ⟨2, _⟩ => show win0_4.index t (2 : Fin 3) * 1024 + 1 * q.val = q.val; rw [e2]; omega

/-! ## One step over the whole arrays -/

/-- The block point t stores, at (p, q): the running entry plus expert t % 8's contribution at row 512·(t / 8) + p. -/
theorem step_routed (c : Dev nD) (t : Fin cfg0.N) (acc : Vec Ideal S512x1024 .f32) (p : Fin 512) (q : Fin 1024)
    (r : Fin 8192) (hr : r.val = 512 * (t.val / 8) + p.val) :
    stepVal (F := Ideal) (grid0.coords t) (iblk m c 0 t) (iblk m c 1 t) (iblk m c 2 t) (iblk m c 3 t) (iblk m c 4 t) acc
        (ix2 p q)
      = acc (ix2 p q) + contrib (rows m c) (routes m c) (weights m c) (ups m c) (downs m c) (t.val % 8) (ix2 r q) := by
  have hE := expert_runs (iblk m c 0 t : Vec Ideal S512x1024 .bf16) (slab (ups m c) (t.val % 8))
    (slab (downs m c) (t.val % 8))
    (flat (upRun0 (iblk m c 3 t))) (flat (upRun1 (iblk m c 3 t))) (flat (upRun2 (iblk m c 3 t)))
    (flat (downRun0 (iblk m c 4 t))) (flat (downRun1 (iblk m c 4 t))) (flat (downRun2 (iblk m c 4 t)))
    (fun k cc => (flat_upRun0 (iblk m c 3 t) k cc).trans (up_entry m c t k _))
    (fun k cc => (flat_upRun1 (iblk m c 3 t) k cc).trans (up_entry m c t k _))
    (fun k cc => (flat_upRun2 (iblk m c 3 t) k cc).trans (up_entry m c t k _))
    (fun cc q' => (flat_downRun0 (iblk m c 4 t) cc q').trans (down_entry m c t _ q'))
    (fun cc q' => (flat_downRun1 (iblk m c 4 t) cc q').trans (down_entry m c t _ q'))
    (fun cc q' => (flat_downRun2 (iblk m c 4 t) cc q').trans (down_entry m c t _ q'))
    p q
  have hRow := expert_row (rows m c) (iblk m c 0 t : Vec Ideal S512x1024 .bf16) (slab (ups m c) (t.val % 8))
    (slab (downs m c) (t.val % 8)) p r q (fun k => tok_entry m c t p k r hr)
  have hcoord : ((grid0.coords t) 1).val = t.val % 8 := (idx_facts t).2.2.2.2.2.2.2.2.2.2.2.2.2.2
  have hG : gate (iblk m c 1 t : Vec Ideal S512x2 .i32) (iblk m c 2 t : Vec Ideal S512x2 .f32)
        (BitVec.ofNat 32 ((grid0.coords t) 1).val) p
      = gate (routes m c) (weights m c) (BitVec.ofNat 32 (t.val % 8)) r := by
    rw [hcoord]
    exact gate_row (routes m c) (weights m c) _ _ _ p r (fun k => route_entry m c t p k r hr)
      (fun k => weight_entry m c t p k r hr)
  refine (stepVal_entry (grid0.coords t) (iblk m c 0 t) (iblk m c 1 t) (iblk m c 2 t) (iblk m c 3 t) (iblk m c 4 t) acc p q).trans ?_
  rw [hE, hRow, hG]
  rfl

/-! ## The staging buffer after each point -/

/-- After point n the output's staging buffer holds the routed output after the experts 0 … n % 8, at the rows of token
    block n / 8. -/
theorem outs_eq (c : Dev nD) : ∀ (n : ℕ) (h : n < cfg0.N) (p : Fin 512) (q : Fin 1024) (r : Fin 8192),
    r.val = 512 * (n / 8) + p.val →
    outsAt0 m c n h (ix2 p q) = routed (rows m c) (routes m c) (weights m c) (ups m c) (downs m c) (n % 8) (ix2 r q)
  | 0, h, p, q, r, hr => by
    refine (congrFun ((outsAt0_A m c ⟨0, h⟩ rfl).trans (out_first ..)) (ix2 p q)).trans ?_
    exact step_routed m c ⟨0, h⟩ (zeroBlock (F := Ideal)) p q r hr
  | n + 1, h, p, q, r, hr => by
    have hN : cfg0.N = 128 := N_0
    by_cases h0 : (n + 1) % 8 = 0
    · refine (congrFun ((outsAt0_A m c ⟨n + 1, h⟩ h0).trans (out_first ..)) (ix2 p q)).trans ?_
      refine (step_routed m c ⟨n + 1, h⟩ (zeroBlock (F := Ideal)) p q r hr).trans ?_
      show zeroW + contrib (rows m c) (routes m c) (weights m c) (ups m c) (downs m c) ((n + 1) % 8) (ix2 r q) = _
      rw [h0]
      rfl
    · refine (congrFun ((outsAt0_B m c ⟨n + 1, h⟩ h0).trans (out_later ..)) (ix2 p q)).trans ?_
      refine (step_routed m c ⟨n + 1, h⟩ (outsAt0 m c n (Nat.lt_of_succ_lt h)) p q r hr).trans ?_
      have e1 : (n + 1) % 8 = n % 8 + 1 := by omega
      have e2 : (n + 1) / 8 = n / 8 := by omega
      rw [outs_eq c n (Nat.lt_of_succ_lt h) p q r (by rw [hr, e2])]
      show _ + contrib (rows m c) (routes m c) (weights m c) (ups m c) (downs m c) ((n + 1) % 8) (ix2 r q) = _
      rw [e1]
      rfl

/-! ## The result array -/

/-- The output after all eight experts, over the 8192 rows. -/
abbrev out (c : Dev nD) : S8192x1024.Idx → EReal :=
  routed (rows m c) (routes m c) (weights m c) (ups m c) (downs m c) 7

/-- What a writing-back point writes is its block of the output after all eight experts. -/
theorem flushed_eq (c : Dev nD) (t : Fin cfg0.N) (hf : (cfg0.win 5).flush t = true) :
    (dats m 0 c).flushed 5 t = ((cfg0.win 5).blk t).view.read (Elt Ideal) (out m c) := by
  have h7 : t.val % 8 = 7 := (flush0_5 t).mp hf
  show (cfg0.win 5).cut (grid0.coords t) ((dats m 0 c).after 5 t) = _
  rw [after0_5]
  funext y
  rw [View.read_apply]
  obtain ⟨-, -, -, -, -, -, -, -, -, -, -, -, e0, e1, -⟩ := idx_facts t
  have hy0 : (y 0).val < 512 := (y 0).isLt
  have hy1 : (y 1).val < 1024 := (y 1).isLt
  have hN : t.val < 128 := lt_of_lt_of_eq t.isLt (show cfg0.N = 128 from N_0)
  have key := outs_eq m c t.val t.isLt ⟨(y 0).val, hy0⟩ ⟨(y 1).val, hy1⟩ ⟨512 * (t.val / 8) + (y 0).val, by omega⟩ rfl
  rw [h7] at key
  refine Eq.trans ?_ (key.trans (congrArg (out m c) (funext fun a => Fin.ext ?_)))
  · exact congrArg (outsAt0 m c t.val t.isLt) (funext fun a => Fin.ext (by
      match a with
      | ⟨0, _⟩ => rfl
      | ⟨1, _⟩ => rfl))
  · match a with
    | ⟨0, _⟩ => show 512 * (t.val / 8) + (y 0).val = win0_5.index t (0 : Fin 2) * 512 + 1 * (y 0).val; rw [e0]; omega
    | ⟨1, _⟩ => show (y 1).val = win0_5.index t (1 : Fin 2) * 1024 + 1 * (y 1).val; rw [e1]; omega

/-- An index of the result array is in point t's block iff each coordinate is in the block's range on its axis. -/
theorem mem_blk (t : Fin cfg0.N) (i : S8192x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v6).slice (win0_5.rect t)).set ↔ _
  rw [View.set_slice_whole, Rect.mem_set_unit]
  exact Iff.rfl

/-- The written-back blocks tile the 8192 rows, so the result array ends holding the output after all eight experts. -/
theorem final_out (c : Dev nD) : (dats m 0 c).arrAt 5 cfg0.N = out m c :=
  (dats m 0 c).arrAt_eq_of_cover 5 (out m c) (flushed_eq m c) fun i => by
    have hi0 : (i 0).val < 8192 := (i 0).isLt
    have hi1 : (i 1).val < 1024 := (i 1).isLt
    have hN : cfg0.N = 128 := N_0
    have hlt : 8 * ((i 0).val / 512) + 7 < cfg0.N := by rw [hN]; omega
    refine ⟨⟨8 * ((i 0).val / 512) + 7, hlt⟩, (flush0_5 _).mpr (by show (8 * ((i 0).val / 512) + 7) % 8 = 7; omega), ?_⟩
    rw [mem_blk]
    obtain ⟨-, -, -, -, -, -, -, -, -, -, -, -, e0, e1, -⟩ := idx_facts ⟨8 * ((i 0).val / 512) + 7, hlt⟩
    intro a
    match a with
    | ⟨0, _⟩ =>
      show win0_5.index ⟨8 * ((i 0).val / 512) + 7, hlt⟩ (0 : Fin 2) * 512 ≤ (i 0).val
        ∧ (i 0).val < win0_5.index ⟨8 * ((i 0).val / 512) + 7, hlt⟩ (0 : Fin 2) * 512 + 512
      rw [e0]
      show (8 * ((i 0).val / 512) + 7) / 8 * 512 ≤ (i 0).val ∧ (i 0).val < (8 * ((i 0).val / 512) + 7) / 8 * 512 + 512
      omega
    | ⟨1, _⟩ =>
      show win0_5.index ⟨8 * ((i 0).val / 512) + 7, hlt⟩ (1 : Fin 2) * 1024 ≤ (i 1).val
        ∧ (i 1).val < win0_5.index ⟨8 * ((i 0).val / 512) + 7, hlt⟩ (1 : Fin 2) * 1024 + 1024
      rw [e1]
      omega

/-- The host line after the region lays the result array out as 4×2048×1024. -/
theorem tail_eq (c : Dev nD) :
    Pipeline.afterTail₀ cfgs (dats m) 0 (V0 m) [hostOps1] c main_v7
      = shapeCast S4x2048x1024 (out m c) shapeCasts_S8192x1024_S4x2048x1024 := by
  unfold Pipeline.afterTail₀
  show StableHlo.after hostOps1 _ (Proc.devRef .tc main_v7) = _
  after_results
  rw [(Pipeline.withArrays_arr spec0 launch0.win.arr_inj c _ _ 5).trans (final_out m c)]
  rfl

/-- The run, read: the result at the routed output laid out as 4×2048×1024, the arguments unchanged. -/
theorem run : θ_run defs (onTc (τ := τ) (main (F := Ideal))) ⟨m, fun _ => 0, ρ⟩ fun r => ∀ c : Dev nD,
      r.2.mem ((c : Thread nD τ).loc main_v7) = shapeCast S4x2048x1024 (out m c) shapeCasts_S8192x1024_S4x2048x1024
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Routed

end
-- ==== Proof.HostSpelling.lean ====
/-
  The reference's spelling of one expert's contribution, read on the extended reals: the expert's two matrices cut out
  of their stacks by a unit-thick slice and a re-shaping, two host matrix products, the routing weights as a host sum
  (from the zero word) of a select on an integer comparison against the expert's number, spread over the columns,
  and the elementwise product. It is the function `contrib`. Nothing here mentions a program.
-/
import proofs.«131477_j46145128628717_2_alg».proof.Proof.Routing
import proofs.«131477_j46145128628717_2_alg».proof.Proof.LibRowReductions

open scoped BigOperators

noncomputable section

namespace Cert.Routing

open Idealize.ShloMosaic Idealize.ShloMosaic.ValueIdx Cert.Lib.MatProd Cert.Lib.RowReductions

/-- A unit-thick slice of a stack of eight a×b matrices at position e, re-shaped to a×b, is expert e's matrix. -/
theorem slice_slab {a b : Nat} (A : (⟨3, ![8, a, b]⟩ : Shape).Idx → EReal) (e : ℕ) (he : e < 8)
    (hs : (⟨3, ![8, a, b]⟩ : Shape).Slices ![e, 0, 0] ⟨3, ![1, a, b]⟩)
    (hc : (⟨3, ![1, a, b]⟩ : Shape).ShapeCasts ⟨2, ![a, b]⟩) :
    shapeCast ⟨2, ![a, b]⟩ (extractStridedSlice ⟨3, ![1, a, b]⟩ ![e, 0, 0] A hs) hc = slab A e := by
  funext j
  obtain ⟨p, q, rfl⟩ : ∃ (p : Fin a) (q : Fin b), j = ix2 p q := ⟨j 0, j 1, eq_ix2 j⟩
  rw [shapeCast_dropUnit_apply ![a, b], slab_apply]
  refine extractStridedSlice_apply ![e, 0, 0] A hs _ _ (fun ax => ?_)
  match ax with
  | ⟨0, _⟩ => show e % 8 = e + 0; omega
  | ⟨1, _⟩ => show p.val = 0 + p.val; omega
  | ⟨2, _⟩ => show q.val = 0 + q.val; omega

section
variable {T : Nat}

/-- The reference's routing weights, spread over the columns, at an entry. -/
theorem host_gate_entry (I : (⟨2, ![T, 2]⟩ : Shape).Idx → BitVec 32) (W : FVec Ideal ⟨2, ![T, 2]⟩ .f32) (ew : BitVec 32)
    (hb0 : (⟨0, ![]⟩ : Shape).BroadcastsInDim ⟨2, ![T, 2]⟩ ![])
    (hb1 : (⟨1, ![T]⟩ : Shape).BroadcastsInDim ⟨2, ![T, 1]⟩ ![0])
    (hb2 : (⟨2, ![T, 1]⟩ : Shape).BroadcastsInDim ⟨2, ![T, 1024]⟩ ![0, 1])
    (hr : (⟨2, ![T, 2]⟩ : Shape).ReducesTo [1] ⟨1, ![T]⟩) (hu : 0 < (⟨0, ![]⟩ : Shape).numel) (a : Fin T) (b : Fin 1024) :
    broadcastInDim ⟨2, ![T, 1024]⟩ ![0, 1] hb2 (broadcastInDim ⟨2, ![T, 1]⟩ ![0] hb1
        (Host.reduceAdd (select (cmpi .eq I (broadcastInDim ⟨2, ![T, 2]⟩ ![] hb0 (constantI ⟨0, ![]⟩ 32 ew))) W
            (broadcastInDim ⟨2, ![T, 2]⟩ ![] hb0 (constant ⟨0, ![]⟩ .f32 0x00000000#32)))
          (constant (F := Ideal) ⟨0, ![]⟩ .f32 0x00000000#32) hr hu)) (ix2 a b)
      = gate I W ew a := by
  rw [bcastInDim_cols_apply, bcastInDim_col_apply]
  have h : (⟨2, ![T, 2]⟩ : Shape).Reduces [1] ⟨1, ![T]⟩ := ⟨hr.1, Nat.one_pos, hr.2⟩
  simp only [Host.reduceAdd, Ideal.hostReduceAdd_def]
  rw [Ideal.hostReduceAdd_single hr h]
  show zeroW + _ = _
  rw [zeroW_eq, zero_add]
  unfold gate
  exact Finset.sum_congr rfl fun k _ => by rw [lift_row h a k]; rfl

/-- The reference's spelling of expert e's contribution is `contrib`. -/
theorem host_contrib_eq (d1 : DotDims ⟨2, ![T, 1024]⟩ ⟨2, ![1024, 3072]⟩ ⟨2, ![T, 3072]⟩)
    (h1lc : d1.lhsContracting = [1]) (h1rc : d1.rhsContracting = [0]) (h1ln : d1.lhsNonContracting = [0])
    (h1rn : d1.rhsNonContracting = [1]) (h1lb : d1.lhsBatch = []) (h1rb : d1.rhsBatch = [])
    (d2 : DotDims ⟨2, ![T, 3072]⟩ ⟨2, ![3072, 1024]⟩ ⟨2, ![T, 1024]⟩)
    (h2lc : d2.lhsContracting = [1]) (h2rc : d2.rhsContracting = [0]) (h2ln : d2.lhsNonContracting = [0])
    (h2rn : d2.rhsNonContracting = [1]) (h2lb : d2.lhsBatch = []) (h2rb : d2.rhsBatch = [])
    (e : ℕ) (he : e < 8)
    (X : FVec Ideal ⟨2, ![T, 1024]⟩ .f32) (I : (⟨2, ![T, 2]⟩ : Shape).Idx → BitVec 32) (W : FVec Ideal ⟨2, ![T, 2]⟩ .f32)
    (U : FVec Ideal ⟨3, ![8, 1024, 3072]⟩ .f32) (D : FVec Ideal ⟨3, ![8, 3072, 1024]⟩ .f32)
    (hsU : (⟨3, ![8, 1024, 3072]⟩ : Shape).Slices ![e, 0, 0] ⟨3, ![1, 1024, 3072]⟩)
    (hcU : (⟨3, ![1, 1024, 3072]⟩ : Shape).ShapeCasts ⟨2, ![1024, 3072]⟩)
    (hsD : (⟨3, ![8, 3072, 1024]⟩ : Shape).Slices ![e, 0, 0] ⟨3, ![1, 3072, 1024]⟩)
    (hcD : (⟨3, ![1, 3072, 1024]⟩ : Shape).ShapeCasts ⟨2, ![3072, 1024]⟩)
    (hb0 : (⟨0, ![]⟩ : Shape).BroadcastsInDim ⟨2, ![T, 2]⟩ ![])
    (hb1 : (⟨1, ![T]⟩ : Shape).BroadcastsInDim ⟨2, ![T, 1]⟩ ![0])
    (hb2 : (⟨2, ![T, 1]⟩ : Shape).BroadcastsInDim ⟨2, ![T, 1024]⟩ ![0, 1])
    (hr : (⟨2, ![T, 2]⟩ : Shape).ReducesTo [1] ⟨1, ![T]⟩) (hu : 0 < (⟨0, ![]⟩ : Shape).numel) :
    mulf (Host.dotGeneral d2 none
          (Host.dotGeneral d1 none X (shapeCast ⟨2, ![1024, 3072]⟩ (extractStridedSlice ⟨3, ![1, 1024, 3072]⟩ ![e, 0, 0] U hsU) hcU))
          (shapeCast ⟨2, ![3072, 1024]⟩ (extractStridedSlice ⟨3, ![1, 3072, 1024]⟩ ![e, 0, 0] D hsD) hcD))
        (broadcastInDim ⟨2, ![T, 1024]⟩ ![0, 1] hb2 (broadcastInDim ⟨2, ![T, 1]⟩ ![0] hb1
          (Host.reduceAdd (select (cmpi .eq I (broadcastInDim ⟨2, ![T, 2]⟩ ![] hb0 (constantI ⟨0, ![]⟩ 32 (BitVec.ofNat 32 e)))) W
              (broadcastInDim ⟨2, ![T, 2]⟩ ![] hb0 (constant ⟨0, ![]⟩ .f32 0x00000000#32)))
            (constant (F := Ideal) ⟨0, ![]⟩ .f32 0x00000000#32) hr hu)))
      = contrib X I W U D e := by
  have hE : Host.dotGeneral (F := Ideal) (φ₁ := .f32) (φ₂ := .f32) d2 none
        (Host.dotGeneral (F := Ideal) (φ₁ := .f32) (φ₂ := .f32) d1 none X (slab U e)) (slab D e)
      = expert X (slab U e) (slab D e) := by
    unfold expert
    show FloatOps.dotGeneral (F := Ideal) (φ₁ := .f32) (φ₂ := .f32) d2 none _
        (FloatOps.dotGeneral (F := Ideal) (φ₁ := .f32) (φ₂ := .f32) d1 none _ X (slab U e)) (slab D e) = _
    rw [dotGeneral_eq_matProd (φ₁ := .f32) (φ₂ := .f32) d1 h1lc h1rc h1ln h1rn h1lb h1rb,
      dotGeneral_eq_matProd (φ₁ := .f32) (φ₂ := .f32) d2 h2lc h2rc h2ln h2rn h2lb h2rb]
  funext i
  obtain ⟨a, b, rfl⟩ : ∃ (a : Fin T) (b : Fin 1024), i = ix2 a b := ⟨i 0, i 1, eq_ix2 i⟩
  unfold contrib
  rw [slice_slab U e he hsU hcU, slice_slab D e he hsD hcD, term_apply, ← hE,
    ← host_gate_entry I W (BitVec.ofNat 32 e) hb0 hb1 hb2 hr hu a b]
  rfl

end

end Cert.Routing

end
-- ==== Proof.RefValue.lean ====
/-
  The reference's result as one function of its arguments: the eight experts' contributions added in expert order from
  the zero word, over the tokens laid out as 8192 rows, and the sum laid back out as 4×2048×1024.
-/
import proofs.«131477_j46145128628717_2_alg».proof.Proof.Gen.ReferenceIdeal.Read
import proofs.«131477_j46145128628717_2_alg».proof.Proof.HostSpelling

noncomputable section

open Idealize.ShloMosaic Idealize.ShloMosaic.ValueIdx

namespace Cert.ReferenceIdeal.RefValue

open Cert.ReferenceIdeal Cert.ReferenceIdeal.Gen Cert.ReferenceIdeal.Read Cert.Routing

variable (x0 : (⟨S4x2048x1024, .f32⟩ : BufTy).Contents (Elt Ideal)) (x1 : (⟨S4x2048x2, .i32⟩ : BufTy).Contents (Elt Ideal))
  (x2 : (⟨S4x2048x2, .f32⟩ : BufTy).Contents (Elt Ideal)) (x3 : (⟨S8x1024x3072, .f32⟩ : BufTy).Contents (Elt Ideal))
  (x4 : (⟨S8x3072x1024, .f32⟩ : BufTy).Contents (Elt Ideal))

/-- The tokens as 8192 rows, their routes and route weights likewise. -/
abbrev rows : S8192x1024.Idx → EReal := val_main_v0 (F := Ideal) x0
abbrev routes : S8192x2.Idx → BitVec 32 := val_main_v1 (F := Ideal) x1
abbrev weights : S8192x2.Idx → EReal := val_main_v2 (F := Ideal) x2

/-- Expert 0's product with its routing weights is its contribution. -/
theorem contrib0 : val_main_v17 (F := Ideal) x0 x1 x2 x3 x4 = contrib (rows x0) (routes x1) (weights x2) x3 x4 0 :=
  host_contrib_eq dot_S8192x1024_S1024x3072_S8192x3072_1_0_0_1_n_n rfl rfl rfl rfl rfl rfl
    dot_S8192x3072_S3072x1024_S8192x1024_1_0_0_1_n_n rfl rfl rfl rfl rfl rfl 0 (by decide)
    (rows x0) (routes x1) (weights x2) x3 x4 _ _ _ _ _ _ _ _ _

/-- Expert 1's product with its routing weights is its contribution. -/
theorem contrib1 : val_main_v32 (F := Ideal) x0 x1 x2 x3 x4 = contrib (rows x0) (routes x1) (weights x2) x3 x4 1 :=
  host_contrib_eq dot_S8192x1024_S1024x3072_S8192x3072_1_0_0_1_n_n rfl rfl rfl rfl rfl rfl
    dot_S8192x3072_S3072x1024_S8192x1024_1_0_0_1_n_n rfl rfl rfl rfl rfl rfl 1 (by decide)
    (rows x0) (routes x1) (weights x2) x3 x4 _ _ _ _ _ _ _ _ _

/-- Expert 2's product with its routing weights is its contribution. -/
theorem contrib2 : val_main_v47 (F := Ideal) x0 x1 x2 x3 x4 = contrib (rows x0) (routes x1) (weights x2) x3 x4 2 :=
  host_contrib_eq dot_S8192x1024_S1024x3072_S8192x3072_1_0_0_1_n_n rfl rfl rfl rfl rfl rfl
    dot_S8192x3072_S3072x1024_S8192x1024_1_0_0_1_n_n rfl rfl rfl rfl rfl rfl 2 (by decide)
    (rows x0) (routes x1) (weights x2) x3 x4 _ _ _ _ _ _ _ _ _

/-- Expert 3's product with its routing weights is its contribution. -/
theorem contrib3 : val_main_v62 (F := Ideal) x0 x1 x2 x3 x4 = contrib (rows x0) (routes x1) (weights x2) x3 x4 3 :=
  host_contrib_eq dot_S8192x1024_S1024x3072_S8192x3072_1_0_0_1_n_n rfl rfl rfl rfl rfl rfl
    dot_S8192x3072_S3072x1024_S8192x1024_1_0_0_1_n_n rfl rfl rfl rfl rfl rfl 3 (by decide)
    (rows x0) (routes x1) (weights x2) x3 x4 _ _ _ _ _ _ _ _ _

/-- Expert 4's product with its routing weights is its contribution. -/
theorem contrib4 : val_main_v77 (F := Ideal) x0 x1 x2 x3 x4 = contrib (rows x0) (routes x1) (weights x2) x3 x4 4 :=
  host_contrib_eq dot_S8192x1024_S1024x3072_S8192x3072_1_0_0_1_n_n rfl rfl rfl rfl rfl rfl
    dot_S8192x3072_S3072x1024_S8192x1024_1_0_0_1_n_n rfl rfl rfl rfl rfl rfl 4 (by decide)
    (rows x0) (routes x1) (weights x2) x3 x4 _ _ _ _ _ _ _ _ _

/-- Expert 5's product with its routing weights is its contribution. -/
theorem contrib5 : val_main_v92 (F := Ideal) x0 x1 x2 x3 x4 = contrib (rows x0) (routes x1) (weights x2) x3 x4 5 :=
  host_contrib_eq dot_S8192x1024_S1024x3072_S8192x3072_1_0_0_1_n_n rfl rfl rfl rfl rfl rfl
    dot_S8192x3072_S3072x1024_S8192x1024_1_0_0_1_n_n rfl rfl rfl rfl rfl rfl 5 (by decide)
    (rows x0) (routes x1) (weights x2) x3 x4 _ _ _ _ _ _ _ _ _

/-- Expert 6's product with its routing weights is its contribution. -/
theorem contrib6 : val_main_v107 (F := Ideal) x0 x1 x2 x3 x4 = contrib (rows x0) (routes x1) (weights x2) x3 x4 6 :=
  host_contrib_eq dot_S8192x1024_S1024x3072_S8192x3072_1_0_0_1_n_n rfl rfl rfl rfl rfl rfl
    dot_S8192x3072_S3072x1024_S8192x1024_1_0_0_1_n_n rfl rfl rfl rfl rfl rfl 6 (by decide)
    (rows x0) (routes x1) (weights x2) x3 x4 _ _ _ _ _ _ _ _ _

/-- Expert 7's product with its routing weights is its contribution. -/
theorem contrib7 : val_main_v122 (F := Ideal) x0 x1 x2 x3 x4 = contrib (rows x0) (routes x1) (weights x2) x3 x4 7 :=
  host_contrib_eq dot_S8192x1024_S1024x3072_S8192x3072_1_0_0_1_n_n rfl rfl rfl rfl rfl rfl
    dot_S8192x3072_S3072x1024_S8192x1024_1_0_0_1_n_n rfl rfl rfl rfl rfl rfl 7 (by decide)
    (rows x0) (routes x1) (weights x2) x3 x4 _ _ _ _ _ _ _ _ _

/-- The reference's running sum after the last expert is the routed output. -/
theorem sum_eq : val_main_v123 (F := Ideal) x0 x1 x2 x3 x4 = routed (rows x0) (routes x1) (weights x2) x3 x4 7 := by
  funext i
  rw [routed_seven, ← contrib0 x0 x1 x2 x3 x4, ← contrib1 x0 x1 x2 x3 x4, ← contrib2 x0 x1 x2 x3 x4,
    ← contrib3 x0 x1 x2 x3 x4, ← contrib4 x0 x1 x2 x3 x4, ← contrib5 x0 x1 x2 x3 x4, ← contrib6 x0 x1 x2 x3 x4,
    ← contrib7 x0 x1 x2 x3 x4]
  rfl

/-- The result: that sum laid out as 4×2048×1024. -/
theorem result_eq : val_main_v124 (F := Ideal) x0 x1 x2 x3 x4
    = shapeCast S4x2048x1024 (routed (rows x0) (routes x1) (weights x2) x3 x4 7) shapeCasts_S8192x1024_S4x2048x1024 := by
  unfold val_main_v124
  rw [sum_eq]

end Cert.ReferenceIdeal.RefValue

end
-- ==== Proof.lean ====
/-
  A dense mixture of experts, tile by tile against expert by expert.

  Both programs compute, for 8192 tokens (the 4×2048 tokens laid out as rows), eight experts and two routes per token,
      out[t, :] = ((0 + y₀[t, :]·w₀[t]) + y₁[t, :]·w₁[t]) + … + y₇[t, :]·w₇[t],
  where yₑ = (X·Uₑ)·Dₑ is expert e applied to every token and wₑ[t] is the sum, over token t's routes, of the route's
  weight where the route names e and of zero elsewhere.

  The kernel walks a grid of 16 token blocks of 512 rows by 8 experts. At each point it adds the expert's contribution
  to the token block's output block, which it reset to zeros at the block's first expert and writes back after the
  last; inside a point the contraction over the expert's 3072 hidden coordinates is taken as three runs of 1024, added
  up from zero. The reference takes each expert over all 8192 tokens at once, with whole matrix products, and adds the
  eight results in the same order.

  On the extended reals a change of float format is the identity, a matrix product into a zero accumulator and the host's
  product are the same sums, and so are a lane sum and the host's sum from zero. The two programs then differ only in
  how the sum over the 3072 hidden coordinates is grouped, and addition of extended reals is commutative and
  associative: no finiteness of the inputs is used. The kernel's value is read off its run point by point — by
  induction on the grid point, the staging buffer after point t holds the output after the experts 0 … t % 8 at the
  rows of token block t / 8 — and the written-back blocks tile the rows. The reference's value is its operations read
  one expert at a time.

  The three frame claims are the generated runs; the idealization rewrote nothing.
-/
import proofs.«131477_j46145128628717_2_alg».proof.Defs
import proofs.«131477_j46145128628717_2_alg».proof.Proof.Gen.Kernel
import proofs.«131477_j46145128628717_2_alg».proof.Proof.Gen.Kernel.Skeleton
import proofs.«131477_j46145128628717_2_alg».proof.Proof.Gen.Kernel.Launch
import proofs.«131477_j46145128628717_2_alg».proof.Proof.Gen.Kernel.Points
import proofs.«131477_j46145128628717_2_alg».proof.Proof.Gen.Kernel.Frame
import proofs.«131477_j46145128628717_2_alg».proof.Proof.Gen.KernelIdeal
import proofs.«131477_j46145128628717_2_alg».proof.Proof.Gen.KernelIdeal.Skeleton
import proofs.«131477_j46145128628717_2_alg».proof.Proof.Gen.KernelIdeal.Launch
import proofs.«131477_j46145128628717_2_alg».proof.Proof.Gen.KernelIdeal.Points
import proofs.«131477_j46145128628717_2_alg».proof.Proof.Gen.KernelIdeal.Frame
import proofs.«131477_j46145128628717_2_alg».proof.Proof.Gen.ReferenceIdeal
import proofs.«131477_j46145128628717_2_alg».proof.Proof.Gen.Pre_finite_inputs
import proofs.«131477_j46145128628717_2_alg».proof.Proof.Gen.ReferenceIdeal.Run
import proofs.«131477_j46145128628717_2_alg».proof.Proof.Gen.ReferenceIdeal.Read
import proofs.«131477_j46145128628717_2_alg».proof.Proof.KernelRouted
import proofs.«131477_j46145128628717_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result is the routed output of its arguments laid out as 4×2048×1024, and so is
    the reference's of arguments that agree. -/
theorem algebraic : Cert.algebraic_KernelIdeal_ReferenceIdeal := by
  intro m ρ m' ρ' _ hagree
  refine ⟨_, Cert.KernelIdeal.Routed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v124_eq, Cert.ReferenceIdeal.RefValue.result_eq, (hagree c).1, (hagree c).2.1,
    (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
